-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S100000x256 : Shape := ⟨2, ![100000, 256]⟩
abbrev S128x256 : Shape := ⟨2, ![128, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : IVec S50000x16 32) (main_arg1 : FVec F S100000x256 .f32) (main_arg2 : FVec F S128x256 .f32) : IVec S_ 1 :=
  let main_v0 : FVec F S100000x256 .f32 := Host.absf main_arg1
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S50000x16 : Shape := ⟨2, ![50000, 16]⟩
abbrev S100000x256 : Shape := ⟨2, ![100000, 256]⟩
abbrev S128x256 : Shape := ⟨2, ![128, 256]⟩
abbrev S256x128 : Shape := ⟨2, ![256, 128]⟩
abbrev S100000x128 : Shape := ⟨2, ![100000, 128]⟩
abbrev S4000x256 : Shape := ⟨2, ![4000, 256]⟩
abbrev S4000x128 : Shape := ⟨2, ![4000, 128]⟩
abbrev S_ : Shape := ⟨0, ![]⟩
abbrev S50000x16x1 : Shape := ⟨3, ![50000, 16, 1]⟩
abbrev S50000x16x128 : Shape := ⟨3, ![50000, 16, 128]⟩
abbrev S50000x128 : Shape := ⟨2, ![50000, 128]⟩

abbrev nBuf : Space → Nat
  | .hbm => 21
  | .vmem => 5
  | .smem => 0
  | _ => 0

abbrev bufTy : (tb : Table) → Fin (tcTables nBuf tb) → BufTy
  | .hbm, ⟨0, _⟩ => ⟨S50000x16, .i32⟩
  | .hbm, ⟨1, _⟩ => ⟨S100000x256, .f32⟩
  | .hbm, ⟨2, _⟩ => ⟨S128x256, .f32⟩
  | .hbm, ⟨3, _⟩ => ⟨S256x128, .f32⟩
  | .hbm, ⟨4, _⟩ => ⟨S256x128, .bf16⟩
  | .hbm, ⟨5, _⟩ => ⟨S100000x128, .bf16⟩
  | .hbm, ⟨6, _⟩ => ⟨S_, .i32⟩
  | .hbm, ⟨7, _⟩ => ⟨S50000x16, .i32⟩
  | .hbm, ⟨8, _⟩ => ⟨S50000x16, .i1⟩
  | .hbm, ⟨9, _⟩ => ⟨S_, .i32⟩
  | .hbm, ⟨10, _⟩ => ⟨S50000x16, .i32⟩
  | .hbm, ⟨11, _⟩ => ⟨S50000x16, .i32⟩
  | .hbm, ⟨12, _⟩ => ⟨S50000x16, .i32⟩
  | .hbm, ⟨13, _⟩ => ⟨S50000x16x1, .i32⟩
  | .hbm, ⟨14, _⟩ => ⟨S50000x16x128, .bf16⟩
  | .hbm, ⟨15, _⟩ => ⟨S50000x16x128, .f32⟩
  | .hbm, ⟨16, _⟩ => ⟨S_, .f32⟩
  | .hbm, ⟨17, _⟩ => ⟨S50000x128, .f32⟩
  | .hbm, ⟨18, _⟩ => ⟨S_, .f32⟩
  | .hbm, ⟨19, _⟩ => ⟨S50000x128, .f32⟩
  | .hbm, ⟨20, _⟩ => ⟨S50000x128, .f32⟩
  | .local _ .vmem, ⟨0, _⟩ => ⟨S4000x256, .f32⟩
  | .local _ .vmem, ⟨1, _⟩ => ⟨S4000x256, .f32⟩
  | .local _ .vmem, ⟨2, _⟩ => ⟨S256x128, .bf16⟩
  | .local _ .vmem, ⟨3, _⟩ => ⟨S4000x128, .bf16⟩
  | .local _ .vmem, ⟨4, _⟩ => ⟨S4000x128, .bf16⟩
  | _, _ => ⟨S50000x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x256_S256x128_1_0 : S128x256.Transposes [1, 0] S256x128
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x128_S50000x128_d1 : S50000x16x128.ReducesTo [1] S50000x128
  h_S_ : 0 < S_.numel
  bcast_S_S50000x128 : S_.BroadcastsInDim S50000x128 (![] : Fin 0 → Fin S50000x128.rank)
  dot_S4000x256_S256x128_S4000x128_1_0_0_1_n_n_wf : DotDims.WF S4000x256 S256x128 S4000x128 [1] [0] [0] [1] [] []
  gather_S100000x128_S50000x16x1_S50000x16x128_2_0_n_n_0_2_1128_wf : GatherDims.WF S100000x128 S50000x16x1 S50000x16x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S50000x16x1_S50000x16x128_2_0_n_n_0_2_1128 : GatherDims S100000x128 S50000x16x1 S50000x16x128 where
  offsetDims := [2]
  collapsedSliceDims := [0]
  operandBatchingDims := []
  startIndicesBatchingDims := []
  startIndexMap := [0]
  indexVectorDim := 2
  sliceSizes := ![1, 128]
  wf := gather_S100000x128_S50000x16x1_S50000x16x128_2_0_n_n_0_2_1128_wf

abbrev win0_0 : Pipeline.Window sig grid0 :=
  Pipeline.Window.ofSpec (Memref.whole main_arg1) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x16 : Shape := ⟨2, ![50000, 16]⟩
abbrev S100000x256 : Shape := ⟨2, ![100000, 256]⟩
abbrev S128x256 : Shape := ⟨2, ![128, 256]⟩
abbrev S100000x128 : Shape := ⟨2, ![100000, 128]⟩
abbrev S_ : Shape := ⟨0, ![]⟩
abbrev S50000x16x1 : Shape := ⟨3, ![50000, 16, 1]⟩
abbrev S50000x16x128 : Shape := ⟨3, ![50000, 16, 128]⟩
abbrev S50000x128 : Shape := ⟨2, ![50000, 128]⟩

abbrev nBuf : Space → Nat
  | .hbm => 18
  | .vmem => 0
  | .smem => 0
  | _ => 0

abbrev bufTy : (tb : Table) → Fin (tcTables nBuf tb) → BufTy
  | .hbm, ⟨0, _⟩ => ⟨S50000x16, .i32⟩
  | .hbm, ⟨1, _⟩ => ⟨S100000x256, .f32⟩
  | .hbm, ⟨2, _⟩ => ⟨S128x256, .f32⟩
  | .hbm, ⟨3, _⟩ => ⟨S100000x128, .f32⟩
  | .hbm, ⟨4, _⟩ => ⟨S_, .i32⟩
  | .hbm, ⟨5, _⟩ => ⟨S50000x16, .i32⟩
  | .hbm, ⟨6, _⟩ => ⟨S50000x16, .i1⟩
  | .hbm, ⟨7, _⟩ => ⟨S_, .i32⟩
  | .hbm, ⟨8, _⟩ => ⟨S50000x16, .i32⟩
  | .hbm, ⟨9, _⟩ => ⟨S50000x16, .i32⟩
  | .hbm, ⟨10, _⟩ => ⟨S50000x16, .i32⟩
  | .hbm, ⟨11, _⟩ => ⟨S50000x16x1, .i32⟩
  | .hbm, ⟨12, _⟩ => ⟨S50000x16x128, .f32⟩
  | .hbm, ⟨13, _⟩ => ⟨S_, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | _, _ => ⟨S50000x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x128_S50000x128_d1 : S50000x16x128.ReducesTo [1] S50000x128
  h_S_ : 0 < S_.numel
  bcast_S_S50000x128 : S_.BroadcastsInDim S50000x128 (![] : Fin 0 → Fin S50000x128.rank)
  dot_S100000x256_S128x256_S100000x128_1_1_0_0_n_n_wf : DotDims.WF S100000x256 S128x256 S100000x128 [1] [1] [0] [0] [] []
  gather_S100000x128_S50000x16x1_S50000x16x128_2_0_n_n_0_2_1128_wf : GatherDims.WF S100000x128 S50000x16x1 S50000x16x128 [2] [0] [] [0] [] 2 ![1, 128]

variable [Facts₀]

def dot_S100000x256_S128x256_S100000x128_1_1_0_0_n_n : DotDims S100000x256 S128x256 S100000x128 where
  lhsContracting := [1]
  rhsContracting := [1]
  lhsNonContracting := [0]
  rhsNonContracting := [0]
  lhsBatch := []
  rhsBatch := []
  wf := dot_S100000x256_S128x256_S100000x128_1_1_0_0_n_n_wf
def gather_S100000x128_S50000x16x1_S50000x16x128_2_0_n_n_0_2_1128 : GatherDims S100000x128 S50000x16x1 S50000x16x128 where
  offsetDims := [2]
  collapsedSliceDims := [0]
  operandBatchingDims := []
  startIndicesBatchingDims := []
  startIndexMap := [0]
  indexVectorDim := 2
  sliceSizes := ![1, 128]
  wf := gather_S100000x128_S50000x16x1_S50000x16x128_2_0_n_n_0_2_1128_wf

class Facts : Prop extends Facts₀ where

variable [Facts]
-- ==== Proof.Projection.lean ====
/-
  The projection both programs compute before the neighbour average: every feature row against every weight row.

  For features `x` of shape [100000, 256] and weights `w` of shape [128, 256] (one weight row per output channel), the
  projected table holds at `(r, f)` the inner product of feature row `r` with weight row `f`, the sum over `k` of
  `x (r, k) · w (f, k)`, on the extended reals. No order of summation and no rounding is left in it, so a product computed
  block of rows by block of rows against the transposed weights and a product computed in one contraction are this same table.
-/
import Idealize.ShloMosaic.PureOps.Ideal
import Idealize.ShloMosaic.Lib.ValueIdx

noncomputable section

namespace Cert.MeanPool

open Idealize.ShloMosaic Idealize.ShloMosaic.ValueIdx
open scoped BigOperators

/-- The projected table: entry `(r, f)` is the inner product of feature row `r` with weight row `f`. -/
def projected (x : (⟨2, ![100000, 256]⟩ : Shape).Idx → EReal) (w : (⟨2, ![128, 256]⟩ : Shape).Idx → EReal) :
    (⟨2, ![100000, 128]⟩ : Shape).Idx → EReal :=
  fun i => ∑ k : Fin 256, x (ix2 (i 0) k) * w (ix2 (i 1) k)

theorem projected_apply (x : (⟨2, ![100000, 256]⟩ : Shape).Idx → EReal) (w : (⟨2, ![128, 256]⟩ : Shape).Idx → EReal)
    (r : Fin 100000) (f : Fin 128) :
    projected x w (ix2 r f) = ∑ k : Fin 256, x (ix2 r k) * w (ix2 f k) := rfl

end Cert.MeanPool

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.BodyProduct.lean ====
/-
  What one grid step of the kernel stores, read at an index.

  The body loads a block of 4000 feature rows and the whole transposed weight matrix [256, 128], multiplies them into a
  zero accumulator and stores the product. On the extended reals the two changes of float format are the identity, so the
  stored block holds at `(p, f)` the sum over `d` of (feature row `p` of the block at `d`) · (transposed weights at `(d, f)`).
-/
import proofs.«124521_j9182640078909_2_alg».proof.Proof.Gen.KernelIdeal.Skeleton
import proofs.«124521_j9182640078909_2_alg».proof.Proof.LibInnerProducts
import Idealize.ShloMosaic.Lib.Pipeline.Value
import Idealize.ShloMosaic.Lib.ValueIdx

noncomputable section

namespace Cert.MeanPool

open Idealize.ShloMosaic Idealize.ShloMosaic.ValueIdx Cert.KernelIdeal Cert.KernelIdeal.Gen
open scoped BigOperators

/-- The printed dimension numbers of the body's product are the plain ones: contract the left factor's columns with the
    right factor's rows. -/
theorem dims_plain : dot_S4000x256_S256x128_S4000x128_1_0_0_1_n_n = DotDims.plain 4000 256 128 := rfl

/-- The block a grid step stores, at row `p` and channel `f`: the inner product of the loaded feature row `p` with
    column `f` of the loaded transposed weights. -/
theorem stored_apply (x0 : Vec Ideal S4000x256 .f32) (x1 : Vec Ideal S256x128 .bf16) (p : Fin 4000) (f : Fin 128) :
    k0_pay1 (F := Ideal) x0 x1 (ix2 p f) = ∑ d : Fin 256, x0 (ix2 p d) * x1 (ix2 d f) := by
  unfold k0_pay1
  rw [truncf_apply, shapeCast_self]
  exact InnerProducts.matmul_zero_apply dot_S4000x256_S256x128_S4000x128_1_0_0_1_n_n dims_plain none _ x1 p f

end Cert.MeanPool

end
-- ==== Proof.ProjectedArray.lean ====
/-
  The array the kernel's one region writes is the projected table.

  Grid step `t` (of 25) stages rows `4000·t … 4000·t + 3999` of the features and, every step, the whole transposed weight
  matrix — which the two host lines before the region made from the weight argument, so its entry `(d, f)` is the
  weights' `(f, d)`. It writes back rows `4000·t …` of the output array. With the stored block read at an index
  (BodyProduct) each write-back is the block of `projected features weights` its rectangle names, and the 25 blocks of
  4000 rows cover all 100000 rows, so the array ends holding `projected features weights`.
-/
import proofs.«124521_j9182640078909_2_alg».proof.Proof.Gen.KernelIdeal.Frame
import proofs.«124521_j9182640078909_2_alg».proof.Proof.Projection
import proofs.«124521_j9182640078909_2_alg».proof.Proof.BodyProduct
import Idealize.ShloMosaic.PureOps.Ideal
import Idealize.ShloMosaic.Lib.Pipeline.Value
import Idealize.ShloMosaic.Lib.StableHlo.Run
import Idealize.ShloMosaic.Lib.ValueIdx

noncomputable section

namespace Cert.MeanPool

open Idealize.ShloMosaic Idealize.ShloMosaic.TcCoe Idealize.SL.Sem Idealize.ShloMosaic.StableHlo
open Idealize.ShloMosaic.ValueIdx
open Cert.KernelIdeal Cert.KernelIdeal.Gen
open Idealize.ShloMosaic.Pipeline (Dat)
open scoped BigOperators

variable (m : (ℓ : Loc nD τ sig) → Buf (Elt Ideal) ℓ)

theorem zero_offsets : (![0, 0] : Fin 2 → Nat) = fun _ => 0 := funext fun a => by fin_cases a <;> rfl

/-- The staged weight matrix is the weight argument transposed (the change of float format is the identity). -/
theorem staged_weights (c : Dev nD) :
    (V m c main_v1 : S256x128.Idx → EReal)
      = truncf (F := Ideal) .bf16
          (transpose S256x128 [1, 0] (m ((c : Thread nD τ).loc main_arg2) : S128x256.Idx → EReal) transposes_S128x256_S256x128_1_0)
          bitsLt_bf16_f32 := by
  show StableHlo.after hostOps0 (fun b => m (c, b)) (Proc.devRef .tc main_v1) = _
  after_results

/-- Its entry `(d, f)` is the weights' entry `(f, d)`. -/
theorem staged_weights_apply (c : Dev nD) (d : Fin 256) (f : Fin 128) :
    (V m c main_v1 : S256x128.Idx → EReal) (ix2 d f)
      = (m ((c : Thread nD τ).loc main_arg2) : S128x256.Idx → EReal) (ix2 f d) := by
  rw [staged_weights m c, truncf_apply]
  exact transpose_apply [1, 0] _ transposes_S128x256_S256x128_1_0 (ix2 d f) (ix2 f d)
    (fun b => by match b with | ⟨0, _⟩ => rfl | ⟨1, _⟩ => rfl)

/-- The stored block at any index of the block, by its two coordinates. -/
theorem stored_at (x0 : Vec Ideal S4000x256 .f32) (x1 : Vec Ideal S256x128 .bf16) (j : S4000x128.Idx) :
    k0_pay1 (F := Ideal) x0 x1 j = ∑ d : Fin 256, x0 (ix2 (j 0) d) * x1 (ix2 d (j 1)) :=
  (congrArg (k0_pay1 (F := Ideal) x0 x1) (eq_ix2 j)).trans (stored_apply x0 x1 (j 0) (j 1))

/-- Where each window's block sits at grid step `t`: the feature block and the output block are block `t` along the
    rows, and the weight matrix is staged whole. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid step `t` writes back is block `t` of the projected table. -/
theorem written_back (c : Dev nD) (t : Fin cfg0.N) :
    (dats m 0 c).flushed 2 t = ((cfg0.win 2).blk t).view.read (Elt Ideal)
      (projected (m ((c : Thread nD τ).loc main_arg1)) (m ((c : Thread nD τ).loc main_arg2))) := by
  show (cfg0.win 2).cut (grid0.coords t) ((dats m 0 c).after 2 t) = _
  rw [after0_2]
  unfold out0_2
  rw [View.canon_unit_zero zero_offsets]
  simp only [View.ld_unit_zero (S := S4000x256) zero_offsets, View.ld_unit_zero (S := S256x128) zero_offsets]
  obtain ⟨e0, e1, e2, e3, e4, e5⟩ := block_positions t
  funext j
  show k0_pay1 (F := Ideal) (iblk m c 0 t) (iblk m c 1 t) j
    = projected (m ((c : Thread nD τ).loc main_arg1)) (m ((c : Thread nD τ).loc main_arg2)) (((cfg0.win 2).blk t).view.emb j)
  refine (stored_at (iblk m c 0 t) (iblk m c 1 t) j).trans ?_
  refine Finset.sum_congr rfl fun d _ => ?_
  have hx : (iblk m c 0 t : S4000x256.Idx → EReal) (ix2 (j 0) d)
      = (m ((c : Thread nD τ).loc main_arg1) : S100000x256.Idx → EReal) (ix2 ((((cfg0.win 2).blk t).view.emb j) 0) d) := by
    show V m c main_arg1 (((cfg0.win 0).blk t).view.emb (ix2 (j 0) d)) = _
    rw [V_main_arg1]
    refine congrArg _ (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 256 + 1 * d.val = d.val
      omega
  have hw : (iblk m c 1 t : S256x128.Idx → EReal) (ix2 d (j 1))
      = (m ((c : Thread nD τ).loc main_arg2) : S128x256.Idx → EReal) (ix2 ((((cfg0.win 2).blk t).view.emb j) 1) d) := by
    show V m c main_v1 (((cfg0.win 1).blk t).view.emb (ix2 d (j 1))) = _
    have ei : ((cfg0.win 1).blk t).view.emb (ix2 d (j 1)) = (ix2 d (j 1) : S256x128.Idx) := by
      refine funext fun a => Fin.ext ?_
      match a with
      | ⟨0, _⟩ =>
        show win0_1.index t (0 : Fin 2) * 256 + 1 * d.val = d.val
        omega
      | ⟨1, _⟩ =>
        show win0_1.index t (1 : Fin 2) * 128 + 1 * (j 1).val = (j 1).val
        omega
    rw [ei]
    refine (staged_weights_apply m c d (j 1)).trans ?_
    refine congrArg _ (funext fun a => Fin.ext ?_)
    match a with
    | ⟨0, _⟩ =>
      show (j 1).val = win0_2.index t (1 : Fin 2) * 128 + 1 * (j 1).val
      omega
    | ⟨1, _⟩ => rfl
  exact congrArg₂ (· * ·) hx hw

/-- An index of the output array is in step `t`'s block iff each coordinate is in the block's range on its axis. -/
theorem mem_block (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v2).slice (win0_2.rect t)).set ↔ _
  rw [View.set_slice_whole, Rect.mem_set_unit]
  exact Iff.rfl

/-- Every row of the output array is in the block of the step its row number divided by 4000 names. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_2 _, ?_⟩
  rw [mem_block]
  obtain ⟨e0, e1, e2, e3, e4, e5⟩ := block_positions ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]
    show (i 0).val / 4000 * 4000 ≤ (i 0).val ∧ (i 0).val < (i 0).val / 4000 * 4000 + 4000
    omega
  | ⟨1, _⟩ =>
    show win0_2.index _ (1 : Fin 2) * 128 ≤ (i 1).val ∧ (i 1).val < win0_2.index _ (1 : Fin 2) * 128 + 128
    rw [e5]
    omega

/-- The output array after the region is the projected table of the feature and weight arguments. -/
theorem array_after_region (c : Dev nD) :
    (dats m 0 c).arrAt 2 cfg0.N
      = projected (m ((c : Thread nD τ).loc main_arg1)) (m ((c : Thread nD τ).loc main_arg2)) :=
  (dats m 0 c).arrAt_eq_of_cover 2 _ (fun t _ => written_back m c t) rows_covered

end Cert.MeanPool

end
-- ==== Proof.GatherMean.lean ====
/-
  The average over sampled neighbours, as one function of a table and an index array.

  After the projection both programs do the same thing to the projected table `P` of shape [100000, 128]: an index entry
  below zero is moved up by 100000 (Python's counting from the end), row `n`'s sixteen indices each pick a row of `P` (an
  index past either end picks the nearest row), the sixteen picked rows are added, and the sum is divided by sixteen.
  `neighbourMean P idx` is that function in the kernel program's own spelling; here the kernel program's result, as the
  lines after its one region leave it, is shown to be `neighbourMean` of the array the region wrote and the index argument.
-/
import proofs.«124521_j9182640078909_2_alg».proof.Proof.Gen.KernelIdeal.Frame
import Idealize.ShloMosaic.PureOps.Ideal
import Idealize.ShloMosaic.Lib.Pipeline.Value
import Idealize.ShloMosaic.Lib.StableHlo.Run

noncomputable section

namespace Cert.MeanPool

open Idealize.ShloMosaic Idealize.ShloMosaic.TcCoe Idealize.SL.Sem Idealize.ShloMosaic.StableHlo
open Cert.KernelIdeal Cert.KernelIdeal.Gen
open Idealize.ShloMosaic.Pipeline (Dat)

/-- Row `n`, channel `f` of the result: the sum over the sixteen neighbours `k` of `P` at (the row index entry `(n, k)`
    names, channel `f`), divided by sixteen — written with the host operations both programs use. -/
def neighbourMean (P : FVec Ideal S100000x128 .bf16) (idx : IVec S50000x16 32) : FVec Ideal S50000x128 .f32 :=
  Host.divf (F := Ideal)
    (Host.reduceAdd (F := Ideal)
      (extf .f32
        (Host.gather gather_S100000x128_S50000x16x1_S50000x16x128_2_0_n_n_0_2_1128 P
          (broadcastInDim S50000x16x1 ![0, 1] bcast_S50000x16_S50000x16x1_0_1
            (select (cmpi .slt idx (broadcastInDim S50000x16 ![] bcast_S_S50000x16 (constantI S_ 32 0#32)))
              (addi idx (broadcastInDim S50000x16 ![] bcast_S_S50000x16 (constantI S_ 32 100000#32)))
              idx)))
        bitsLt_bf16_f32)
      (constant (F := Ideal) S_ .f32 0x00000000#32) reducesTo_S50000x16x128_S50000x128_d1 h_S_)
    (broadcastInDim S50000x128 ![] bcast_S_S50000x128 (constant (F := Ideal) S_ .f32 0x41800000#32))

variable (m : (ℓ : Loc nD τ sig) → Buf (Elt Ideal) ℓ)

/-- The lines after the region compute `neighbourMean` of the array the region wrote (the projected table as the grid's
    write-backs leave it) and of the index argument, which nothing has written. -/
theorem result_after_region (c : Dev nD) :
    Pipeline.afterTail₀ cfgs (dats m) 0 (V0 m) [hostOps1] c main_v13
      = neighbourMean ((dats m 0 c).arrAt 2 cfg0.N) (m ((c : Thread nD τ).loc main_arg0)) := by
  unfold Pipeline.afterTail₀
  show StableHlo.after hostOps1 _ (Proc.devRef .tc main_v13) = _
  after_results
  have eP : Pipeline.withArrays (cfgs 0).spec c (V0 m c) (fun w => (dats m 0 c).arrAt w (cfgs 0).N)
      (Proc.devRef .tc main_v2) = (dats m 0 c).arrAt 2 cfg0.N :=
    Pipeline.withArrays_arr spec0 launch0.win.arr_inj c _ _ 2
  have eI : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  rw [eP, eI]
  rfl

end Cert.MeanPool

end
-- ==== Proof.KernelResult.lean ====
/-
  The kernel program's run, with its result named.

  Every weakly fair execution of the kernel program ends with its result at the neighbour average of the projected table
  of the feature and weight arguments, and with the three arguments as they were: the region's array is the projected
  table (ProjectedArray), the lines after the region compute the neighbour average of that array (GatherMean), and the
  generated frame run supplies the execution and the unchanged arguments.
-/
import proofs.«124521_j9182640078909_2_alg».proof.Proof.Gen.KernelIdeal.Frame
import proofs.«124521_j9182640078909_2_alg».proof.Proof.ProjectedArray
import proofs.«124521_j9182640078909_2_alg».proof.Proof.GatherMean

noncomputable section

namespace Cert.MeanPool

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem kernel_run :
    θ_run defs (onTc (τ := τ) (main (F := Ideal))) ⟨m, fun _ => 0, ρ⟩ fun r => ∀ c : Dev nD,
      r.2.mem ((c.tc : Thread nD τ).loc main_v13)
        = neighbourMean (projected (m ((c.tc : Thread nD τ).loc main_arg1)) (m ((c.tc : Thread nD τ).loc main_arg2)))
            (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans
        ((result_after_region m c).trans
          (congrArg (fun P => neighbourMean P (m ((c.tc : Thread nD τ).loc main_arg0))) (array_after_region m c))),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.MeanPool

end
-- ==== Proof.ReferenceMean.lean ====
/-
  The reference program's result is the neighbour average of the projected table.

  The reference contracts the feature columns with the weight columns in one host operation; read at `(r, f)` that is the
  sum over `k` of `features (r, k) · weights (f, k)`, the projected table. The rest of the reference is, operation for
  operation, the average the kernel program's last lines compute (there the picked rows also pass through a change of
  float format, the identity on the extended reals).
-/
import proofs.«124521_j9182640078909_2_alg».proof.Proof.Gen.ReferenceIdeal.Read
import proofs.«124521_j9182640078909_2_alg».proof.Proof.Projection
import proofs.«124521_j9182640078909_2_alg».proof.Proof.GatherMean

noncomputable section

namespace Cert.MeanPool

open Idealize.ShloMosaic Idealize.ShloMosaic.ValueIdx
open scoped BigOperators

/-- The reference's contraction is the projected table. -/
theorem reference_projection
    (x1 : (⟨Cert.ReferenceIdeal.S100000x256, .f32⟩ : BufTy).Contents (Elt Ideal))
    (x2 : (⟨Cert.ReferenceIdeal.S128x256, .f32⟩ : BufTy).Contents (Elt Ideal)) :
    Cert.ReferenceIdeal.Read.val_main_v0 (F := Ideal) x1 x2 = projected x1 x2 := by
  funext i
  rw [Cert.ReferenceIdeal.Read.val_main_v0_apply]
  refine Finset.sum_congr rfl fun k _ => ?_
  have el : Cert.ReferenceIdeal.Read.lidx_main_v0 i k = ix2 (i 0) k :=
    funext fun a => Fin.ext (by match a with | ⟨0, _⟩ => rfl | ⟨1, _⟩ => rfl)
  have er : Cert.ReferenceIdeal.Read.ridx_main_v0 i k = ix2 (i 1) k :=
    funext fun a => Fin.ext (by match a with | ⟨0, _⟩ => rfl | ⟨1, _⟩ => rfl)
  exact congrArg₂ (· * ·) (congrArg x1 el) (congrArg x2 er)

/-- The reference's result is the neighbour average of the projected table of its arguments. -/
theorem reference_result
    (x0 : (⟨Cert.ReferenceIdeal.S50000x16, .i32⟩ : BufTy).Contents (Elt Ideal))
    (x1 : (⟨Cert.ReferenceIdeal.S100000x256, .f32⟩ : BufTy).Contents (Elt Ideal))
    (x2 : (⟨Cert.ReferenceIdeal.S128x256, .f32⟩ : BufTy).Contents (Elt Ideal)) :
    Cert.ReferenceIdeal.Read.val_main_v10 (F := Ideal) x0 x1 x2 = neighbourMean (projected x1 x2) x0 := by
  show Host.divf (F := Ideal)
      (Host.reduceAdd (F := Ideal)
        (Host.gather Cert.ReferenceIdeal.gather_S100000x128_S50000x16x1_S50000x16x128_2_0_n_n_0_2_1128
          (Cert.ReferenceIdeal.Read.val_main_v0 (F := Ideal) x1 x2) (Cert.ReferenceIdeal.Read.val_main_v6 (F := Ideal) x0))
        (Cert.ReferenceIdeal.Read.val_main_cst (F := Ideal)) Cert.ReferenceIdeal.Facts₀.reducesTo_S50000x16x128_S50000x128_d1 Cert.ReferenceIdeal.Facts₀.h_S_)
      (Cert.ReferenceIdeal.Read.val_main_v9 (F := Ideal)) = _
  rw [reference_projection]
  rfl

end Cert.MeanPool

end
-- ==== Proof.lean ====
/-
  Mean pooling over sampled neighbours: the kernel program and its reference compute one function.

  Both programs project every feature row onto every weight row and then average, for each of 50000 nodes, the sixteen
  projected rows its index entries name. The kernel program does the projection in a grid of 25 steps, 4000 feature rows at
  a time against the transposed weights, and changes float format on the way; the reference does it in one contraction.
  On the extended reals a change of float format is the identity and a product into a zero accumulator is the plain sum,
  so both projections are the table `projected features weights` (its entry `(r, f)` the sum over `k` of
  `features (r, k) · weights (f, k)`), and the lines that follow — move a negative index up by 100000, pick the rows,
  add the sixteen, divide by sixteen — are the same on both sides: `neighbourMean`. No law of arithmetic beyond reading
  the two sums as one is needed, so the finiteness of the inputs is never used.
  The three frames are the generated ones (the reference's is its generated run with the result dropped), and the
  idealization rewrote nothing, so the fourth conjunct is trivial.
-/
import proofs.«124521_j9182640078909_2_alg».proof.Defs
import proofs.«124521_j9182640078909_2_alg».proof.Proof.Gen.Kernel
import proofs.«124521_j9182640078909_2_alg».proof.Proof.Gen.Kernel.Skeleton
import proofs.«124521_j9182640078909_2_alg».proof.Proof.Gen.Kernel.Launch
import proofs.«124521_j9182640078909_2_alg».proof.Proof.Gen.Kernel.Points
import proofs.«124521_j9182640078909_2_alg».proof.Proof.Gen.Kernel.Frame
import proofs.«124521_j9182640078909_2_alg».proof.Proof.Gen.KernelIdeal
import proofs.«124521_j9182640078909_2_alg».proof.Proof.Gen.KernelIdeal.Skeleton
import proofs.«124521_j9182640078909_2_alg».proof.Proof.Gen.KernelIdeal.Launch
import proofs.«124521_j9182640078909_2_alg».proof.Proof.Gen.KernelIdeal.Points
import proofs.«124521_j9182640078909_2_alg».proof.Proof.Gen.KernelIdeal.Frame
import proofs.«124521_j9182640078909_2_alg».proof.Proof.Gen.ReferenceIdeal
import proofs.«124521_j9182640078909_2_alg».proof.Proof.Gen.Pre_finite_inputs
import proofs.«124521_j9182640078909_2_alg».proof.Proof.Gen.ReferenceIdeal.Run
import proofs.«124521_j9182640078909_2_alg».proof.Proof.Gen.ReferenceIdeal.Read
import proofs.«124521_j9182640078909_2_alg».proof.Proof.KernelResult
import proofs.«124521_j9182640078909_2_alg».proof.Proof.ReferenceMean
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the kernel program ends at the neighbour average of the projected
    table of its arguments, and so does the reference. -/
theorem algebraic : Cert.algebraic_KernelIdeal_ReferenceIdeal := by
  intro m ρ m' ρ' _ hagree
  refine ⟨_, Cert.MeanPool.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans (Cert.MeanPool.reference_result _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
